-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S10000x128 .f32) (main_arg1 : IVec S2x640000 32) (main_arg2 : FVec F S128x256 .f32) (main_arg3 : FVec F S128x256 .f32) (main_arg4 : FVec F S256 .f32) (main_arg5 : FVec F S256x128 .f32) (main_arg6 : FVec F S256x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S10000x128 : Shape := ⟨2, ![10000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S1x256 : Shape := ⟨2, ![1, 256]⟩
abbrev S10000x256 : Shape := ⟨2, ![10000, 256]⟩
abbrev S1000x128 : Shape := ⟨2, ![1000, 128]⟩
abbrev S1000x256 : Shape := ⟨2, ![1000, 256]⟩
abbrev S640000x256 : Shape := ⟨2, ![640000, 256]⟩
abbrev S1x128 : Shape := ⟨2, ![1, 128]⟩

abbrev nBuf : Space → Nat
  | .hbm => 66
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S10000x128, .f32⟩
  | .hbm, ⟨23, _⟩ => ⟨S640000x1, .i32⟩
  | .hbm, ⟨24, _⟩ => ⟨S10000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S10000, .f32⟩
  | .hbm, ⟨29, _⟩ => ⟨S640000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x128, .f32⟩
  | .hbm, ⟨36, _⟩ => ⟨S10000x128, .f32⟩
  | .hbm, ⟨37, _⟩ => ⟨S1x256, .f32⟩
  | .hbm, ⟨38, _⟩ => ⟨S10000x256, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x256, .f32⟩
  | .hbm, ⟨48, _⟩ => ⟨S_, .f32⟩
  | .hbm, ⟨49, _⟩ => ⟨S10000x256, .f32⟩
  | .hbm, ⟨50, _⟩ => ⟨S640000x1, .i32⟩
  | .hbm, ⟨51, _⟩ => ⟨S10000x256, .f32⟩
  | .hbm, ⟨52, _⟩ => ⟨S_, .f32⟩
  | .hbm, ⟨53, _⟩ => ⟨S640000, .f32⟩
  | .hbm, ⟨54, _⟩ => ⟨S_, .f32⟩
  | .hbm, ⟨55, _⟩ => ⟨S10000, .f32⟩
  | .hbm, ⟨56, _⟩ => ⟨S640000x1, .i32⟩
  | .hbm, ⟨57, _⟩ => ⟨S10000, .f32⟩
  | .hbm, ⟨58, _⟩ => ⟨S_, .f32⟩
  | .hbm, ⟨59, _⟩ => ⟨S10000, .f32⟩
  | .hbm, ⟨60, _⟩ => ⟨S10000, .f32⟩
  | .hbm, ⟨61, _⟩ => ⟨S10000x1, .f32⟩
  | .hbm, ⟨62, _⟩ => ⟨S10000x256, .f32⟩
  | .hbm, ⟨63, _⟩ => ⟨S10000x256, .f32⟩
  | .hbm, ⟨64, _⟩ => ⟨S1x128, .f32⟩
  | .hbm, ⟨65, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S1000x128, .f32⟩
  | .local _ .vmem, ⟨17, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  shapeCasts_S256_S1x256 : S256.ShapeCasts S1x256
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  shapeCasts_S128_S1x128 : S128.ShapeCasts S1x128
  shapeCasts_S1000x256_S1000x256 : S1000x256.ShapeCasts S1000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S1000x128_S128x256_S1000x256_1_0_0_1_n_n_wf : DotDims.WF S1000x128 S128x256 S1000x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S10000x256.size a
  hwx0_5 : ∀ i : grid0.Coords, EltTy.bits .f32 = 32 ∨ (Rect.block (s := S10000x256) S1000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S10000x256.size a
  hwx1_1 : ∀ i : grid1.Coords, EltTy.bits .f32 = 32 ∨ (Rect.block (s := S10000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S10000x128.size a
  hwx1_5 : ∀ i : grid1.Coords, EltTy.bits .f32 = 32 ∨ (Rect.block (s := S10000x128) S1000x128.size (cc1_transform_5 i) (hinb1_5 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_v22) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S640000x256 : Shape := ⟨2, ![640000, 256]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S10000x128, .f32⟩
  | .hbm, ⟨23, _⟩ => ⟨S640000x1, .i32⟩
  | .hbm, ⟨24, _⟩ => ⟨S10000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S10000, .f32⟩
  | .hbm, ⟨29, _⟩ => ⟨S640000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x128, .f32⟩
  | .hbm, ⟨36, _⟩ => ⟨S10000x128, .f32⟩
  | .hbm, ⟨37, _⟩ => ⟨S10000x256, .f32⟩
  | .hbm, ⟨38, _⟩ => ⟨S10000x256, .f32⟩
  | .hbm, ⟨39, _⟩ => ⟨S10000x256, .f32⟩
  | .hbm, ⟨40, _⟩ => ⟨S1x256, .f32⟩
  | .hbm, ⟨41, _⟩ => ⟨S10000x256, .f32⟩
  | .hbm, ⟨42, _⟩ => ⟨S10000x256, .f32⟩
  | .hbm, ⟨43, _⟩ => ⟨S_, .f32⟩
  | .hbm, ⟨44, _⟩ => ⟨S10000x256, .f32⟩
  | .hbm, ⟨45, _⟩ => ⟨S10000x256, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x256, .f32⟩
  | .hbm, ⟨55, _⟩ => ⟨S_, .f32⟩
  | .hbm, ⟨56, _⟩ => ⟨S10000x256, .f32⟩
  | .hbm, ⟨57, _⟩ => ⟨S640000x1, .i32⟩
  | .hbm, ⟨58, _⟩ => ⟨S10000x256, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S10000, .f32⟩
  | .hbm, ⟨63, _⟩ => ⟨S640000x1, .i32⟩
  | .hbm, ⟨64, _⟩ => ⟨S10000, .f32⟩
  | .hbm, ⟨65, _⟩ => ⟨S_, .f32⟩
  | .hbm, ⟨66, _⟩ => ⟨S10000, .f32⟩
  | .hbm, ⟨67, _⟩ => ⟨S10000, .f32⟩
  | .hbm, ⟨68, _⟩ => ⟨S10000x1, .f32⟩
  | .hbm, ⟨69, _⟩ => ⟨S10000x256, .f32⟩
  | .hbm, ⟨70, _⟩ => ⟨S10000x256, .f32⟩
  | .hbm, ⟨71, _⟩ => ⟨S10000x128, .f32⟩
  | .hbm, ⟨72, _⟩ => ⟨S10000x128, .f32⟩
  | .hbm, ⟨73, _⟩ => ⟨S10000x128, .f32⟩
  | .hbm, ⟨74, _⟩ => ⟨S1x128, .f32⟩
  | .hbm, ⟨75, _⟩ => ⟨S10000x128, .f32⟩
  | .hbm, ⟨76, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x256_S10000x256_1_0_0_1_n_n_wf : DotDims.WF S10000x128 S128x256 S10000x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S10000x256_S256x128_S10000x128_1_0_0_1_n_n_wf : DotDims.WF S10000x256 S256x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KernelRun.lean ====
/-
  The kernel program's run with its result array named.

  The program is two stretches of host operations, each followed by a grid of ten points of the dense kernel. Its
  run is the chain of those four segments from the launch memory: every weakly fair execution terminates without a
  fault, and at the end every buffer that outlives the run holds the contents the chain's last boundary gives it.
  Read at the result buffer and at the eight argument buffers this says: the result is the last boundary's contents of
  the second grid's output array, and the arguments are as launched.
-/
import proofs.«132134_j17386027614800_1_alg».proof.Proof.Gen.KernelIdeal.Frame

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument buffer as launched. -/
theorem run : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.SageSpec.lean ====
/-
  Two layers of mean-neighbour graph convolution, as one function of the inputs, at the extended reals.

  A graph has 10000 nodes and 640000 directed edges; edge e goes from node src(e) (row 0 of the edge list) to node
  dst(e) (row 1). A layer with input features X (one row per node) first averages, for every node n, the rows
  X(src e) over the edges e with dst(e) = n (the sum of those rows divided by max(their number, 1)), and then maps
  node n's averaged row a(n) and its own row X(n) to  a(n)·W_l + X(n)·W_r + b.  The first layer (128 → 256 features) is
  followed by max(·, 0); the second (256 → 128) is not. Each step is written with the array operations of the reference
  program: slices of the edge list, a gather of rows, a scatter-add of rows, an entrywise quotient, matrix products,
  broadcasts of a bias row.
-/
import proofs.«132134_j17386027614800_1_alg».proof.Proof.Gen.ReferenceIdeal
import Idealize.ShloMosaic.PureOps.Ideal

noncomputable section

namespace Cert.Sage

open Idealize.ShloMosaic Cert.ReferenceIdeal Cert.ReferenceIdeal.Gen

/-- The edge list's type: two rows of 640000 node numbers. -/
abbrev Edges : Type := (⟨S2x640000, .i32⟩ : BufTy).Contents (Elt Ideal)
/-- A column of 640000 node numbers. -/
abbrev NodeIds : Type := (⟨S640000x1, .i32⟩ : BufTy).Contents (Elt Ideal)

/-- The source node of every edge: row 0 of the edge list, a negative number counted back from 10000. -/
def srcIdx (ei : Edges) : NodeIds :=
  broadcastInDim S640000x1 ![0] bcast_S640000_S640000x1_0
    (select (cmpi .slt (shapeCast _ (extractStridedSlice S1x640000 ![0, 0] ei slices_S2x640000_S1x640000_0_0) shapeCasts_S1x640000_S640000) (broadcastInDim S640000 ![] bcast_S_S640000 (constantI S_ 32 0#32)))
      (addi (shapeCast _ (extractStridedSlice S1x640000 ![0, 0] ei slices_S2x640000_S1x640000_0_0) shapeCasts_S1x640000_S640000) (broadcastInDim S640000 ![] bcast_S_S640000 (constantI S_ 32 10000#32)))
      (shapeCast _ (extractStridedSlice S1x640000 ![0, 0] ei slices_S2x640000_S1x640000_0_0) shapeCasts_S1x640000_S640000))

/-- The destination node of every edge: row 1 of the edge list. -/
def dstIdx (ei : Edges) : NodeIds :=
  broadcastInDim S640000x1 ![0] bcast_S640000_S640000x1_0
    (shapeCast _ (extractStridedSlice S1x640000 ![1, 0] ei slices_S2x640000_S1x640000_1_0) shapeCasts_S1x640000_S640000)

/-- For every node, the number of edges that end at it, or 1 if there is none. -/
def degree (ei : Edges) : FVec Ideal S10000 .f32 :=
  maximumf
    (Host.scatterAdd scatter_S10000_S640000x1_S640000_n_0_0_1 (broadcastInDim S10000 ![] bcast_S_S10000 (constant S_ .f32 0x00000000#32))
      (dstIdx ei) (broadcastInDim S640000 ![] bcast_S_S640000 (constant S_ .f32 0x3F800000#32)))
    (broadcastInDim S10000 ![] bcast_S_S10000 (constant S_ .f32 0x3F800000#32))

/-- Neighbour averages of 128 features: the rows of the edges' source nodes summed at their destination nodes, each
    node's sum divided by its degree. -/
def mean128 (x : FVec Ideal S10000x128 .f32) (ei : Edges) : FVec Ideal S10000x128 .f32 :=
  Host.divf
    (Host.scatterAdd scatter_S10000x128_S640000x1_S640000x128_1_0_0_1 (broadcastInDim S10000x128 ![] bcast_S_S10000x128 (constant S_ .f32 0x00000000#32))
      (dstIdx ei) (Host.gather gather_S10000x128_S640000x1_S640000x128_1_0_n_n_0_1_1128 x (srcIdx ei)))
    (broadcastInDim S10000x128 ![0, 1] bcast_S10000x1_S10000x128_0_1 (broadcastInDim S10000x1 ![0] bcast_S10000_S10000x1_0 (degree ei)))

/-- Neighbour averages of 256 features. -/
def mean256 (h : FVec Ideal S10000x256 .f32) (ei : Edges) : FVec Ideal S10000x256 .f32 :=
  Host.divf
    (Host.scatterAdd scatter_S10000x256_S640000x1_S640000x256_1_0_0_1 (broadcastInDim S10000x256 ![] bcast_S_S10000x256 (constant S_ .f32 0x00000000#32))
      (dstIdx ei) (Host.gather gather_S10000x256_S640000x1_S640000x256_1_0_n_n_0_1_1256 h (srcIdx ei)))
    (broadcastInDim S10000x256 ![0, 1] bcast_S10000x1_S10000x256_0_1 (broadcastInDim S10000x1 ![0] bcast_S10000_S10000x1_0 (degree ei)))

/-- The first layer's dense part with the bias given as a 1 × 256 row: max(a·W_l + x·W_r + row, 0). -/
def layer1Row (a x : FVec Ideal S10000x128 .f32) (wl wr : FVec Ideal S128x256 .f32) (row : FVec Ideal S1x256 .f32) :
    FVec Ideal S10000x256 .f32 :=
  maximumf
    (addf (addf (Host.dotGeneral dot_S10000x128_S128x256_S10000x256_1_0_0_1_n_n none a wl)
                (Host.dotGeneral dot_S10000x128_S128x256_S10000x256_1_0_0_1_n_n none x wr))
          (broadcastInDim S10000x256 ![0, 1] bcast_S1x256_S10000x256_0_1 row))
    (broadcastInDim S10000x256 ![] bcast_S_S10000x256 (constant S_ .f32 0x00000000#32))

/-- The second layer's dense part with the bias given as a 1 × 128 row: a·W_l + h·W_r + row. -/
def layer2Row (a h : FVec Ideal S10000x256 .f32) (wl wr : FVec Ideal S256x128 .f32) (row : FVec Ideal S1x128 .f32) :
    FVec Ideal S10000x128 .f32 :=
  addf (addf (Host.dotGeneral dot_S10000x256_S256x128_S10000x128_1_0_0_1_n_n none a wl)
             (Host.dotGeneral dot_S10000x256_S256x128_S10000x128_1_0_0_1_n_n none h wr))
       (broadcastInDim S10000x128 ![0, 1] bcast_S1x128_S10000x128_0_1 row)

/-- The hidden features: the first layer on the inputs' neighbour averages and the inputs. -/
def hidden (x : FVec Ideal S10000x128 .f32) (ei : Edges) (w1l w1r : FVec Ideal S128x256 .f32) (b1 : FVec Ideal S256 .f32) :
    FVec Ideal S10000x256 .f32 :=
  layer1Row (mean128 x ei) x w1l w1r (broadcastInDim S1x256 ![1] bcast_S256_S1x256_1 b1)

/-- The network: the second layer on the hidden features' neighbour averages and the hidden features. -/
def net (x : FVec Ideal S10000x128 .f32) (ei : Edges) (w1l w1r : FVec Ideal S128x256 .f32) (b1 : FVec Ideal S256 .f32)
    (w2l w2r : FVec Ideal S256x128 .f32) (b2 : FVec Ideal S128 .f32) : FVec Ideal S10000x128 .f32 :=
  layer2Row (mean256 (hidden x ei w1l w1r b1) ei) (hidden x ei w1l w1r b1) w2l w2r (broadcastInDim S1x128 ![1] bcast_S128_S1x128_1 b2)

end Cert.Sage

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«132134_j17386027614800_1_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«132134_j17386027614800_1_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LayerBlock.lean ====
/-
  What the dense kernel computes on one block of 1000 node rows is that block of rows of the layer.

  The kernel body gets a block of 1000 rows of the averaged features and the same block of rows of the node features,
  both weight matrices whole and the bias as a 1 × n row. It narrows the four matrices to a shorter float format (the
  identity at the extended reals), multiplies each block by its weight matrix into a zero accumulator, adds the two
  products and then the bias row to every row, and in the first layer takes the maximum with 0. Each of these steps acts
  on every row by itself, so the result is the corresponding block of rows of the layer applied to the whole arrays.
-/
import proofs.«132134_j17386027614800_1_alg».proof.Proof.Gen.KernelIdeal.Skeleton
import proofs.«132134_j17386027614800_1_alg».proof.Proof.SageSpec
import proofs.«132134_j17386027614800_1_alg».proof.Proof.LibPlainRecord

noncomputable section

namespace Cert.Sage

open Idealize.ShloMosaic Idealize.ShloMosaic.ValueIdx Cert.Lib.DenseLayer

/-- The four product records — a block of 1000 rows, or all 10000 rows, times a 128 × 256 or a 256 × 128 weight
    matrix — are plain products: the left operand's columns are contracted with the right operand's rows. -/
theorem plain_block1 : Plain Cert.KernelIdeal.dot_S1000x128_S128x256_S1000x256_1_0_0_1_n_n := Plain.of_fields _ rfl rfl rfl rfl rfl rfl
theorem plain_whole1 : Plain Cert.ReferenceIdeal.dot_S10000x128_S128x256_S10000x256_1_0_0_1_n_n := Plain.of_fields _ rfl rfl rfl rfl rfl rfl
theorem plain_block2 : Plain Cert.KernelIdeal.dot_S1000x256_S256x128_S1000x128_1_0_0_1_n_n := Plain.of_fields _ rfl rfl rfl rfl rfl rfl
theorem plain_whole2 : Plain Cert.ReferenceIdeal.dot_S10000x256_S256x128_S10000x128_1_0_0_1_n_n := Plain.of_fields _ rfl rfl rfl rfl rfl rfl

/-- First layer: the body's result on the blocks of rows of `a` and `x` that start at row `off` is the block of
    rows of max(a·W_l + x·W_r + row, 0) that starts there. -/
theorem layer1_block {off : Nat} (ab xb : FVec Ideal Cert.KernelIdeal.S1000x128 .f32) (a x : FVec Ideal Cert.ReferenceIdeal.S10000x128 .f32)
    (wl wr : FVec Ideal Cert.KernelIdeal.S128x256 .f32) (row : FVec Ideal Cert.KernelIdeal.S1x256 .f32)
    (ha : RowBlk off ab a) (hx : RowBlk off xb x) :
    RowBlk off (Cert.KernelIdeal.Gen.k0_pay1 (F := Ideal) ab xb wl wr row) (layer1Row a x wl wr row) := by
  unfold Cert.KernelIdeal.Gen.k0_pay1 layer1Row
  dsimp only
  rw [shapeCast_self, shapeCast_self]
  exact RowBlk.max
    (RowBlk.add (RowBlk.add (RowBlk.matmul plain_block1 plain_whole1 ha wl _ _) (RowBlk.matmul plain_block1 plain_whole1 hx wr _ _))
      (RowBlk.bias row _ _))
    (RowBlk.const (Scalar.ofBits (F := Ideal) .f32 0x00000000#32) (fun _ => rfl) (fun _ => rfl))

/-- Second layer: the body's result on the blocks of rows of `a` and `h` that start at row `off` is the block of
    rows of a·W_l + h·W_r + row that starts there. -/
theorem layer2_block {off : Nat} (ab hb : FVec Ideal Cert.KernelIdeal.S1000x256 .f32) (a h : FVec Ideal Cert.ReferenceIdeal.S10000x256 .f32)
    (wl wr : FVec Ideal Cert.KernelIdeal.S256x128 .f32) (row : FVec Ideal Cert.KernelIdeal.S1x128 .f32)
    (ha : RowBlk off ab a) (hh : RowBlk off hb h) :
    RowBlk off (Cert.KernelIdeal.Gen.k1_pay1 (F := Ideal) ab hb wl wr row) (layer2Row a h wl wr row) := by
  unfold Cert.KernelIdeal.Gen.k1_pay1 layer2Row
  dsimp only
  rw [shapeCast_self, shapeCast_self, shapeCast_self]
  exact RowBlk.add (RowBlk.add (RowBlk.matmul plain_block2 plain_whole2 ha wl _ _) (RowBlk.matmul plain_block2 plain_whole2 hh wr _ _))
      (RowBlk.bias row _ _)

end Cert.Sage

end
-- ==== Proof.LibRowRead.lean ====
/-
  Reading the row-block relation of a dense layer at arbitrary indices.

  `RowBlk off xb X` says that `xb` is the block of rows of `X` that starts at row `off`, entry by entry at indices
  built from a row and a column. Here the same fact is read at ANY index `y` of the block and ANY index `i` of the
  whole matrix whose row is `off` plus `y`'s row and whose column is `y`'s column; and a block equal to a whole
  matrix entry by entry, read at indices with equal coordinates.
-/
import proofs.«132134_j17386027614800_1_alg».proof.Proof.LibPlainRecord

noncomputable section

namespace Cert.Lib.DenseLayer

open Idealize.ShloMosaic Idealize.ShloMosaic.ValueIdx

/-- The block's entry at `y` is the matrix's entry at `i` when `i` is `y` moved down by `off` rows. -/
theorem RowBlk.read {Mb M K : Nat} {off : Nat} {xb : (⟨2, ![Mb, K]⟩ : Shape).Idx → EReal} {X : (⟨2, ![M, K]⟩ : Shape).Idx → EReal}
    (h : RowBlk off xb X) (y : (⟨2, ![Mb, K]⟩ : Shape).Idx) (i : (⟨2, ![M, K]⟩ : Shape).Idx)
    (h0 : (i 0).val = off + (y 0).val) (h1 : (i 1).val = (y 1).val) : xb y = X i := by
  have hr : off + (y 0).val < M := h0 ▸ (i 0).isLt
  have ey : y = ix2 (y 0) (y 1) := eq_ix2 y
  have ei : i = ix2 ⟨off + (y 0).val, hr⟩ (y 1) := funext fun a => Fin.ext (by
    match a with
    | ⟨0, _⟩ => exact h0
    | ⟨1, _⟩ => exact h1)
  rw [ey, ei]
  exact h (y 0) hr (y 1)

/-- The converse packaging: a block whose every entry is the matrix's entry `off` rows further down. -/
theorem RowBlk.of_read {Mb M K : Nat} {off : Nat} {xb : (⟨2, ![Mb, K]⟩ : Shape).Idx → EReal} {X : (⟨2, ![M, K]⟩ : Shape).Idx → EReal}
    (e : (⟨2, ![Mb, K]⟩ : Shape).Idx → (⟨2, ![M, K]⟩ : Shape).Idx)
    (h0 : ∀ y, (e y 0).val = off + (y 0).val) (h1 : ∀ y, (e y 1).val = (y 1).val)
    (h : ∀ y, xb y = X (e y)) : RowBlk off xb X := fun r hr k => by
  rw [h (ix2 r k)]
  exact congrArg X (funext fun a => Fin.ext (by
    match a with
    | ⟨0, _⟩ => exact h0 (ix2 r k)
    | ⟨1, _⟩ => exact h1 (ix2 r k)))

/-- Two indices of one rank-2 shape with equal coordinates are equal. -/
theorem idx2_ext {A B : Nat} (i j : (⟨2, ![A, B]⟩ : Shape).Idx) (h0 : (i 0).val = (j 0).val) (h1 : (i 1).val = (j 1).val) :
    i = j := funext fun a => Fin.ext (by
  match a with
  | ⟨0, _⟩ => exact h0
  | ⟨1, _⟩ => exact h1)

end Cert.Lib.DenseLayer

end
-- ==== Proof.KernelArrays.lean ====
/-
  The two grids of the kernel program, each read as one whole-array function.

  Each grid has ten points; point t works on rows 1000·t … 1000·t + 999: it fetches that block of rows of its two
  row-blocked inputs, both weight matrices and the bias row whole, and writes its result back as that block of rows of
  the output array. The blocks of the ten points tile the 10000 rows, and on every block the body computes that block
  of rows of the layer. So after a grid its output array holds the layer applied to the whole input arrays, whatever
  those arrays held when the grid was entered.
-/
import proofs.«132134_j17386027614800_1_alg».proof.Proof.Gen.KernelIdeal.Frame
import proofs.«132134_j17386027614800_1_alg».proof.Proof.LayerBlock
import proofs.«132134_j17386027614800_1_alg».proof.Proof.LibRowRead
import Idealize.ShloMosaic.Lib.Pipeline.Value

set_option maxRecDepth 16384

noncomputable section

namespace Cert.KernelIdeal.Arrays

open Cert.KernelIdeal Cert.KernelIdeal.Gen
open Idealize.ShloMosaic Idealize.ShloMosaic.TcCoe Idealize.SL.Sem Cert.Lib.DenseLayer
open Idealize.ShloMosaic.Pipeline (Dat Cfg Window)

-- the contents of the buffers when a grid is entered: any
variable (V : (c : Dev nD) → (b : Ref sig .tc) → Buf (Elt Ideal) ((c : Thread nD τ).loc b))

/-- The corner every load and store of the body starts at. -/
theorem origin : (![0, 0] : Fin 2 → Nat) = fun _ => 0 := funext fun a => by fin_cases a <;> rfl

/-! ## Grid 0: the first layer -/

/-- The block numbers of grid 0's windows at its ten points, read off the printed index maps: the two row-blocked inputs
    and the output are at block (t, 0) at point t; the two weight matrices and the bias row are always block (0, 0). -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block of 1000 rows is some point's output block. -/
theorem index_onto0 : ∀ q : Fin 10, ∃ t : Fin cfg0.N, win0_5.index t = ![q.val, 0] :=
  (by decide +kernel : ∀ q : Fin 10, ∃ t : Fin grid0.N, win0_5.index t = ![q.val, 0])

/-- At point t the first input's block is the block of 1000 rows of its array that starts at row 1000·t. -/
theorem rows0_0 (c : Dev nD) (t : Fin cfg0.N) :
    RowBlk (t.val * 1000) (iblk0 V c 0 t : FVec Ideal S1000x128 .f32) (V c main_v22 : FVec Ideal S10000x128 .f32) := by
  obtain ⟨e0, e1, -⟩ := index_facts0 t
  refine RowBlk.of_read (fun y => ((cfg0.win 0).blk t).view.emb y) (fun y => ?_) (fun y => ?_) (fun y => rfl)
  · show win0_0.index t (0 : Fin 2) * 1000 + 1 * (y 0).val = t.val * 1000 + (y 0).val; omega
  · show win0_0.index t (1 : Fin 2) * 128 + 1 * (y 1).val = (y 1).val; omega

/-- The same for the second input. -/
theorem rows0_1 (c : Dev nD) (t : Fin cfg0.N) :
    RowBlk (t.val * 1000) (iblk0 V c 1 t : FVec Ideal S1000x128 .f32) (V c main_arg0 : FVec Ideal S10000x128 .f32) := by
  obtain ⟨-, -, e0, e1, -⟩ := index_facts0 t
  refine RowBlk.of_read (fun y => ((cfg0.win 1).blk t).view.emb y) (fun y => ?_) (fun y => ?_) (fun y => rfl)
  · show win0_1.index t (0 : Fin 2) * 1000 + 1 * (y 0).val = t.val * 1000 + (y 0).val; omega
  · show win0_1.index t (1 : Fin 2) * 128 + 1 * (y 1).val = (y 1).val; omega

/-- At every point the left weight matrix's block is the whole matrix. -/
theorem whole0_2 (c : Dev nD) (t : Fin cfg0.N) : (iblk0 V c 2 t : FVec Ideal S128x256 .f32) = V c main_arg2 := by
  obtain ⟨-, -, -, -, e0, e1, -⟩ := index_facts0 t
  funext y
  show V c main_arg2 (((cfg0.win 2).blk t).view.emb y) = V c main_arg2 y
  refine congrArg (V c main_arg2) (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

/-- The same for the right weight matrix. -/
theorem whole0_3 (c : Dev nD) (t : Fin cfg0.N) : (iblk0 V c 3 t : FVec Ideal S128x256 .f32) = V c main_arg3 := by
  obtain ⟨-, -, -, -, -, -, e0, e1, -⟩ := index_facts0 t
  funext y
  show V c main_arg3 (((cfg0.win 3).blk t).view.emb y) = V c main_arg3 y
  refine congrArg (V c main_arg3) (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

/-- And for the bias row. -/
theorem whole0_4 (c : Dev nD) (t : Fin cfg0.N) : (iblk0 V c 4 t : FVec Ideal S1x256 .f32) = V c main_v23 := by
  obtain ⟨-, -, -, -, -, -, -, -, e0, e1, -⟩ := index_facts0 t
  funext y
  show V c main_v23 (((cfg0.win 4).blk t).view.emb y) = V c main_v23 y
  refine congrArg (V c main_v23) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- One entry of one point's result: with blocks of rows that start at row `off` and the weights and bias row whole,
    the body's value at position j of the block is the layer's value at position i of the array, when i is j moved
    down by `off` rows. -/
theorem entry0 (off : Nat) (ab xb : FVec Ideal S1000x128 .f32) (wlb wrb : FVec Ideal S128x256 .f32) (rowb : FVec Ideal S1x256 .f32)
    (a x : FVec Ideal S10000x128 .f32) (wl wr : FVec Ideal S128x256 .f32) (row : FVec Ideal S1x256 .f32)
    (ha : RowBlk off ab a) (hx : RowBlk off xb x) (hl : wlb = wl) (hr : wrb = wr) (hrow : rowb = row)
    (j : S1000x256.Idx) (i : S10000x256.Idx) (h0 : (i 0).val = off + (j 0).val) (h1 : (i 1).val = (j 1).val) :
    k0_pay1 (F := Ideal) ab xb wlb wrb rowb j = Sage.layer1Row a x wl wr row i := by
  subst hl hr hrow
  exact RowBlk.read (Sage.layer1_block ab xb a x wlb wrb rowb ha hx) j i h0 h1

/-- What point t writes back is block t of the layer applied to the arrays as the grid finds them. -/
theorem flushed0 (c : Dev nD) (t : Fin cfg0.N) :
    (dat0 V c).flushed 5 t = ((cfg0.win 5).blk t).view.read (Elt Ideal)
      (Sage.layer1Row (V c main_v22) (V c main_arg0) (V c main_arg2) (V c main_arg3) (V c main_v23)) := by
  show (cfg0.win 5).cut (grid0.coords t) ((dat0 V c).after 5 t) = _
  rw [after0_5]
  unfold out0_5
  rw [View.canon_unit_zero origin]
  simp only [View.ld_unit_zero (S := S1000x128) origin, View.ld_unit_zero (S := S128x256) origin, View.ld_unit_zero (S := S1x256) origin]
  obtain ⟨-, -, -, -, -, -, -, -, -, -, e0, e1⟩ := index_facts0 t
  funext j
  refine entry0 (t.val * 1000) (iblk0 V c 0 t) (iblk0 V c 1 t) (iblk0 V c 2 t) (iblk0 V c 3 t) (iblk0 V c 4 t)
    (V c main_v22) (V c main_arg0) (V c main_arg2) (V c main_arg3) (V c main_v23)
    (rows0_0 V c t) (rows0_1 V c t) (whole0_2 V c t) (whole0_3 V c t) (whole0_4 V c t) j (((cfg0.win 5).blk t).view.emb j) ?_ ?_
  · show win0_5.index t (0 : Fin 2) * 1000 + 1 * (j 0).val = t.val * 1000 + (j 0).val; omega
  · show win0_5.index t (1 : Fin 2) * 256 + 1 * (j 1).val = (j 1).val; omega

/-- A position of the output array lies in point t's block iff its row and column lie in the block's ranges. -/
theorem mem_block0 (t : Fin cfg0.N) (i : S10000x256.Idx) :
    i ∈ ((cfg0.win 5).blk t).view.set ↔ ∀ a : Fin 2, win0_5.index t a * S1000x256.size a ≤ (i a).val ∧ (i a).val < win0_5.index t a * S1000x256.size a + S1000x256.size a := by
  show i ∈ ((View.whole main_v24).slice (win0_5.rect t)).set ↔ _
  rw [View.set_slice_whole, Rect.mem_set_unit]
  exact Iff.rfl

/-- Every position of the output array lies in the block of the point numbered by its row divided by 1000. -/
theorem cover0 (i : S10000x256.Idx) : ∃ t : Fin cfg0.N, (cfg0.win 5).flush t = true ∧ i ∈ ((cfg0.win 5).blk t).view.set := by
  have hi0 : (i 0).val < 10000 := (i 0).isLt
  have hi1 : (i 1).val < 256 := (i 1).isLt
  obtain ⟨t, ht⟩ := index_onto0 ⟨(i 0).val / 1000, by omega⟩
  have q0 : win0_5.index t (0 : Fin 2) = (i 0).val / 1000 := congrFun ht 0
  have q1 : win0_5.index t (1 : Fin 2) = 0 := congrFun ht 1
  refine ⟨t, flush0_5 t, ?_⟩
  rw [mem_block0]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 256 ≤ (i 1).val ∧ (i 1).val < win0_5.index t (1 : Fin 2) * 256 + 256; omega

/-- After grid 0 its output array holds the layer applied to the input arrays as the grid found them. -/
theorem final0 (c : Dev nD) :
    (dat0 V c).arrAt 5 cfg0.N = Sage.layer1Row (V c main_v22) (V c main_arg0) (V c main_arg2) (V c main_arg3) (V c main_v23) :=
  (dat0 V c).arrAt_eq_of_cover 5 _ (fun t _ => flushed0 V c t) cover0

/-! ## Grid 1: the second layer -/

/-- The block numbers of grid 1's windows at its ten points, read off the printed index maps: the two row-blocked inputs
    and the output are at block (t, 0) at point t; the two weight matrices and the bias row are always block (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block of 1000 rows is some point's output block. -/
theorem index_onto1 : ∀ q : Fin 10, ∃ t : Fin cfg1.N, win1_5.index t = ![q.val, 0] :=
  (by decide +kernel : ∀ q : Fin 10, ∃ t : Fin grid1.N, win1_5.index t = ![q.val, 0])

/-- At point t the first input's block is the block of 1000 rows of its array that starts at row 1000·t. -/
theorem rows1_0 (c : Dev nD) (t : Fin cfg1.N) :
    RowBlk (t.val * 1000) (iblk1 V c 0 t : FVec Ideal S1000x256 .f32) (V c main_v43 : FVec Ideal S10000x256 .f32) := by
  obtain ⟨e0, e1, -⟩ := index_facts1 t
  refine RowBlk.of_read (fun y => ((cfg1.win 0).blk t).view.emb y) (fun y => ?_) (fun y => ?_) (fun y => rfl)
  · show win1_0.index t (0 : Fin 2) * 1000 + 1 * (y 0).val = t.val * 1000 + (y 0).val; omega
  · show win1_0.index t (1 : Fin 2) * 256 + 1 * (y 1).val = (y 1).val; omega

/-- The same for the second input. -/
theorem rows1_1 (c : Dev nD) (t : Fin cfg1.N) :
    RowBlk (t.val * 1000) (iblk1 V c 1 t : FVec Ideal S1000x256 .f32) (V c main_v24 : FVec Ideal S10000x256 .f32) := by
  obtain ⟨-, -, e0, e1, -⟩ := index_facts1 t
  refine RowBlk.of_read (fun y => ((cfg1.win 1).blk t).view.emb y) (fun y => ?_) (fun y => ?_) (fun y => rfl)
  · show win1_1.index t (0 : Fin 2) * 1000 + 1 * (y 0).val = t.val * 1000 + (y 0).val; omega
  · show win1_1.index t (1 : Fin 2) * 256 + 1 * (y 1).val = (y 1).val; omega

/-- At every point the left weight matrix's block is the whole matrix. -/
theorem whole1_2 (c : Dev nD) (t : Fin cfg1.N) : (iblk1 V c 2 t : FVec Ideal S256x128 .f32) = V c main_arg5 := by
  obtain ⟨-, -, -, -, e0, e1, -⟩ := index_facts1 t
  funext y
  show V c main_arg5 (((cfg1.win 2).blk t).view.emb y) = V c main_arg5 y
  refine congrArg (V c main_arg5) (funext fun a => Fin.ext ?_)
  match a with
  | ⟨0, _⟩ => show win1_2.index t (0 : Fin 2) * 256 + 1 * (y 0).val = (y 0).val; omega
  | ⟨1, _⟩ => show win1_2.index t (1 : Fin 2) * 128 + 1 * (y 1).val = (y 1).val; omega

/-- The same for the right weight matrix. -/
theorem whole1_3 (c : Dev nD) (t : Fin cfg1.N) : (iblk1 V c 3 t : FVec Ideal S256x128 .f32) = V c main_arg6 := by
  obtain ⟨-, -, -, -, -, -, e0, e1, -⟩ := index_facts1 t
  funext y
  show V c main_arg6 (((cfg1.win 3).blk t).view.emb y) = V c main_arg6 y
  refine congrArg (V c main_arg6) (funext fun a => Fin.ext ?_)
  match a with
  | ⟨0, _⟩ => show win1_3.index t (0 : Fin 2) * 256 + 1 * (y 0).val = (y 0).val; omega
  | ⟨1, _⟩ => show win1_3.index t (1 : Fin 2) * 128 + 1 * (y 1).val = (y 1).val; omega

/-- And for the bias row. -/
theorem whole1_4 (c : Dev nD) (t : Fin cfg1.N) : (iblk1 V c 4 t : FVec Ideal S1x128 .f32) = V c main_v44 := by
  obtain ⟨-, -, -, -, -, -, -, -, e0, e1, -⟩ := index_facts1 t
  funext y
  show V c main_v44 (((cfg1.win 4).blk t).view.emb y) = V c main_v44 y
  refine congrArg (V c main_v44) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- One entry of one point's result: with blocks of rows that start at row `off` and the weights and bias row whole,
    the body's value at position j of the block is the layer's value at position i of the array, when i is j moved
    down by `off` rows. -/
theorem entry1 (off : Nat) (ab xb : FVec Ideal S1000x256 .f32) (wlb wrb : FVec Ideal S256x128 .f32) (rowb : FVec Ideal S1x128 .f32)
    (a x : FVec Ideal S10000x256 .f32) (wl wr : FVec Ideal S256x128 .f32) (row : FVec Ideal S1x128 .f32)
    (ha : RowBlk off ab a) (hx : RowBlk off xb x) (hl : wlb = wl) (hr : wrb = wr) (hrow : rowb = row)
    (j : S1000x128.Idx) (i : S10000x128.Idx) (h0 : (i 0).val = off + (j 0).val) (h1 : (i 1).val = (j 1).val) :
    k1_pay1 (F := Ideal) ab xb wlb wrb rowb j = Sage.layer2Row a x wl wr row i := by
  subst hl hr hrow
  exact RowBlk.read (Sage.layer2_block ab xb a x wlb wrb rowb ha hx) j i h0 h1

/-- What point t writes back is block t of the layer applied to the arrays as the grid finds them. -/
theorem flushed1 (c : Dev nD) (t : Fin cfg1.N) :
    (dat1 V c).flushed 5 t = ((cfg1.win 5).blk t).view.read (Elt Ideal)
      (Sage.layer2Row (V c main_v43) (V c main_v24) (V c main_arg5) (V c main_arg6) (V c main_v44)) := by
  show (cfg1.win 5).cut (grid1.coords t) ((dat1 V c).after 5 t) = _
  rw [after1_5]
  unfold out1_5
  rw [View.canon_unit_zero origin]
  simp only [View.ld_unit_zero (S := S1000x256) origin, View.ld_unit_zero (S := S256x128) origin, View.ld_unit_zero (S := S1x128) origin]
  obtain ⟨-, -, -, -, -, -, -, -, -, -, e0, e1⟩ := index_facts1 t
  funext j
  refine entry1 (t.val * 1000) (iblk1 V c 0 t) (iblk1 V c 1 t) (iblk1 V c 2 t) (iblk1 V c 3 t) (iblk1 V c 4 t)
    (V c main_v43) (V c main_v24) (V c main_arg5) (V c main_arg6) (V c main_v44)
    (rows1_0 V c t) (rows1_1 V c t) (whole1_2 V c t) (whole1_3 V c t) (whole1_4 V c t) j (((cfg1.win 5).blk t).view.emb j) ?_ ?_
  · show win1_5.index t (0 : Fin 2) * 1000 + 1 * (j 0).val = t.val * 1000 + (j 0).val; omega
  · show win1_5.index t (1 : Fin 2) * 128 + 1 * (j 1).val = (j 1).val; omega

/-- A position of the output array lies in point t's block iff its row and column lie in the block's ranges. -/
theorem mem_block1 (t : Fin cfg1.N) (i : S10000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v45).slice (win1_5.rect t)).set ↔ _
  rw [View.set_slice_whole, Rect.mem_set_unit]
  exact Iff.rfl

/-- Every position of the output array lies in the block of the point numbered by its row divided by 1000. -/
theorem cover1 (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  obtain ⟨t, ht⟩ := index_onto1 ⟨(i 0).val / 1000, by omega⟩
  have q0 : win1_5.index t (0 : Fin 2) = (i 0).val / 1000 := congrFun ht 0
  have q1 : win1_5.index t (1 : Fin 2) = 0 := congrFun ht 1
  refine ⟨t, flush1_5 t, ?_⟩
  rw [mem_block1]
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 128 ≤ (i 1).val ∧ (i 1).val < win1_5.index t (1 : Fin 2) * 128 + 128; omega

/-- After grid 1 its output array holds the layer applied to the input arrays as the grid found them. -/
theorem final1 (c : Dev nD) :
    (dat1 V c).arrAt 5 cfg1.N = Sage.layer2Row (V c main_v43) (V c main_v24) (V c main_arg5) (V c main_arg6) (V c main_v44) :=
  (dat1 V c).arrAt_eq_of_cover 5 _ (fun t _ => flushed1 V c t) cover1

end Cert.KernelIdeal.Arrays

end
-- ==== Proof.KernelValue.lean ====
/-
  The kernel program's result array is the two-layer network of its arguments.

  The program's buffers are followed from the launch memory through its four segments. The first stretch of host
  operations leaves the inputs' neighbour averages (a gather of the source nodes' rows, a scatter-add at the destination
  nodes, a division by the degrees) and the first bias as a 1 × 256 row; the first grid leaves the hidden features; the
  second stretch leaves the hidden features' neighbour averages — it reads the edges' node numbers the first stretch
  left, which the first grid does not touch — and the second bias as a 1 × 128 row; the second grid leaves the result.
  A vector of n numbers reshaped to a 1 × n row is the same row as the vector broadcast along a new leading axis, which
  is how the reference spells the bias.
-/
import proofs.«132134_j17386027614800_1_alg».proof.Proof.KernelArrays

set_option maxRecDepth 16384

noncomputable section

namespace Cert.KernelIdeal.Named

open Cert.KernelIdeal Cert.KernelIdeal.Gen
open Idealize.ShloMosaic Idealize.ShloMosaic.TcCoe Idealize.SL.Sem Cert.Lib.DenseLayer

variable (m : (ℓ : Loc nD τ sig) → Buf (Elt Ideal) ℓ) (ρ : Dev nD → PrngReg)

/-! ## Before the first grid -/

set_option maxHeartbeats 2000000 in
/-- The first grid finds the inputs' neighbour averages in its first window's array. -/
theorem entry0_mean (c : Dev nD) :
    (V1 m ρ c main_v22 : FVec Ideal S10000x128 .f32) = Sage.mean128 (m ((c : Thread nD τ).loc main_arg0)) (m ((c : Thread nD τ).loc main_arg1)) := by
  show StableHlo.after hostOps0 _ (Proc.devRef .tc main_v22) = _
  after_results_simp
  rfl

/-- It finds the node features, both first-layer weight matrices and the edge list as launched. -/
theorem entry0_arg0 (c : Dev nD) : V1 m ρ c main_arg0 = (m ((c : Thread nD τ).loc main_arg0)) := by
  show StableHlo.after hostOps0 _ (Proc.devRef .tc main_arg0) = _
  after_results <;> rfl
theorem entry0_arg2 (c : Dev nD) : V1 m ρ c main_arg2 = (m ((c : Thread nD τ).loc main_arg2)) := by
  show StableHlo.after hostOps0 _ (Proc.devRef .tc main_arg2) = _
  after_results <;> rfl
theorem entry0_arg3 (c : Dev nD) : V1 m ρ c main_arg3 = (m ((c : Thread nD τ).loc main_arg3)) := by
  show StableHlo.after hostOps0 _ (Proc.devRef .tc main_arg3) = _
  after_results <;> rfl

/-- It finds the first bias as a 1 × 256 row. -/
theorem entry0_row (c : Dev nD) :
    (V1 m ρ c main_v23 : FVec Ideal S1x256 .f32) = broadcastInDim S1x256 ![1] Cert.ReferenceIdeal.Gen.bcast_S256_S1x256_1 (m ((c : Thread nD τ).loc main_arg4)) := by
  show StableHlo.after hostOps0 _ (Proc.devRef .tc main_v23) = _
  after_results
  exact addUnit_eq_bcast (by decide) _ _ _

/-! ## After the first grid -/

/-- The first grid leaves the hidden features in its output array. -/
theorem hidden_eq (c : Dev nD) :
    (W2 m ρ c (Proc.devRef .tc main_v24) : FVec Ideal S10000x256 .f32)
      = Sage.hidden (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans <| (Arrays.final0 (V1 m ρ) c).trans <| by
    rw [entry0_mean m ρ c, entry0_arg0 m ρ c, entry0_arg2 m ρ c, entry0_arg3 m ρ c, entry0_row m ρ c]
    rfl

/-- The first grid leaves the edges' source node numbers where the first stretch put them. -/
theorem kept_src (c : Dev nD) :
    W2 m ρ c (Proc.devRef .tc main_v1)
      = shapeCast S640000 (extractStridedSlice S1x640000 ![0, 0] (m ((c : Thread nD τ).loc main_arg1)) slices_S2x640000_S1x640000_0_0) shapeCasts_S1x640000_S640000 := by
  refine (W2_of_ne m ρ c main_v1 (by decide)).trans ?_
  show StableHlo.after hostOps0 _ (Proc.devRef .tc main_v1) = _
  after_results <;> rfl

/-- And the destination node numbers. -/
theorem kept_dst (c : Dev nD) :
    W2 m ρ c (Proc.devRef .tc main_v3)
      = shapeCast S640000 (extractStridedSlice S1x640000 ![1, 0] (m ((c : Thread nD τ).loc main_arg1)) slices_S2x640000_S1x640000_1_0) shapeCasts_S1x640000_S640000 := by
  refine (W2_of_ne m ρ c main_v3 (by decide)).trans ?_
  show StableHlo.after hostOps0 _ (Proc.devRef .tc main_v3) = _
  after_results <;> rfl

/-- It leaves the second-layer weights and bias as launched. -/
theorem kept_arg5 (c : Dev nD) : W2 m ρ c (Proc.devRef .tc main_arg5) = (m ((c : Thread nD τ).loc main_arg5)) := by
  refine (W2_of_ne m ρ c main_arg5 (by decide)).trans ?_
  show StableHlo.after hostOps0 _ (Proc.devRef .tc main_arg5) = _
  after_results <;> rfl
theorem kept_arg6 (c : Dev nD) : W2 m ρ c (Proc.devRef .tc main_arg6) = (m ((c : Thread nD τ).loc main_arg6)) := by
  refine (W2_of_ne m ρ c main_arg6 (by decide)).trans ?_
  show StableHlo.after hostOps0 _ (Proc.devRef .tc main_arg6) = _
  after_results <;> rfl
theorem kept_arg7 (c : Dev nD) : W2 m ρ c (Proc.devRef .tc main_arg7) = (m ((c : Thread nD τ).loc main_arg7)) := by
  refine (W2_of_ne m ρ c main_arg7 (by decide)).trans ?_
  show StableHlo.after hostOps0 _ (Proc.devRef .tc main_arg7) = _
  after_results <;> rfl

/-! ## Before the second grid -/

set_option maxHeartbeats 2000000 in
/-- The second grid finds the hidden features' neighbour averages in its first window's array. -/
theorem entry1_mean (c : Dev nD) :
    (V3 m ρ c main_v43 : FVec Ideal S10000x256 .f32) = Sage.mean256 (W2 m ρ c (Proc.devRef .tc main_v24)) (m ((c : Thread nD τ).loc main_arg1)) := by
  show StableHlo.after hostOps1 _ (Proc.devRef .tc main_v43) = _
  after_results_simp
  rw [kept_src m ρ c, kept_dst m ρ c]
  rfl

/-- It finds the hidden features where the first grid left them. -/
theorem entry1_hidden (c : Dev nD) : V3 m ρ c main_v24 = W2 m ρ c (Proc.devRef .tc main_v24) := by
  show StableHlo.after hostOps1 _ (Proc.devRef .tc main_v24) = _
  after_results <;> rfl

/-- It finds the second-layer weight matrices as launched. -/
theorem entry1_arg5 (c : Dev nD) : V3 m ρ c main_arg5 = (m ((c : Thread nD τ).loc main_arg5)) := by
  show StableHlo.after hostOps1 _ (Proc.devRef .tc main_arg5) = _
  after_results
  exact kept_arg5 m ρ c
theorem entry1_arg6 (c : Dev nD) : V3 m ρ c main_arg6 = (m ((c : Thread nD τ).loc main_arg6)) := by
  show StableHlo.after hostOps1 _ (Proc.devRef .tc main_arg6) = _
  after_results
  exact kept_arg6 m ρ c

/-- It finds the second bias as a 1 × 128 row. -/
theorem entry1_row (c : Dev nD) :
    (V3 m ρ c main_v44 : FVec Ideal S1x128 .f32) = broadcastInDim S1x128 ![1] Cert.ReferenceIdeal.Gen.bcast_S128_S1x128_1 (m ((c : Thread nD τ).loc main_arg7)) := by
  show StableHlo.after hostOps1 _ (Proc.devRef .tc main_v44) = _
  after_results
  rw [kept_arg7 m ρ c]
  exact addUnit_eq_bcast (by decide) _ _ _

/-! ## After the second grid -/

/-- The result array ends holding the network of the eight arguments. -/
theorem result_eq (c : Dev nD) :
    (W4 m ρ c (Proc.devRef .tc main_v45) : FVec Ideal S10000x128 .f32) = Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 5).trans <| (Arrays.final1 (V3 m ρ) c).trans <| by
    rw [entry1_mean m ρ c, entry1_hidden m ρ c, entry1_arg5 m ρ c, entry1_arg6 m ρ c, entry1_row m ρ c, hidden_eq m ρ c]
    rfl

end Cert.KernelIdeal.Named

end
-- ==== Proof.RefValue.lean ====
/-
  The reference program computes the two-layer network: the array its run ends with is the function `Sage.net` of its
  eight argument arrays.
-/
import proofs.«132134_j17386027614800_1_alg».proof.Proof.Gen.ReferenceIdeal.Run
import proofs.«132134_j17386027614800_1_alg».proof.Proof.SageSpec

noncomputable section

namespace Cert.Sage

open Idealize.ShloMosaic Idealize.ShloMosaic.TcCoe Idealize.SL.Sem Cert.ReferenceIdeal

/-- The reference's result, as a term of its arguments, is the network applied to them: the two are the same
    composition of the same operations. -/
theorem reference_eq (m : (ℓ : Loc nD τ sig) → Buf (Elt Ideal) ℓ) (c : Dev nD) :
    Cert.ReferenceIdeal.Value.res_main_v54 (F := Ideal) m c
      = net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v54 net hidden layer2Row layer1Row mean256 mean128 degree dstIdx srcIdx
  rfl

end Cert.Sage

end
-- ==== Proof.lean ====
/-
  A two-layer mean-neighbour graph convolution on 10000 nodes and 640000 edges (128 → 256 → 128 features, max(·, 0)
  after the first layer): a program that computes each layer's dense part — a(n)·W_l + x(n)·W_r + b for every node n,
  a(n) the average of the node's in-neighbours' rows — in a grid of ten blocks of 1000 node rows, against a reference
  that computes it on whole arrays. Both programs compute the neighbour averages with the same host operations.

  At the extended reals the two results are the same array. In the dense part the blocked program narrows its four
  matrices to a shorter float format (the identity at the extended reals), multiplies into zero accumulators, and adds
  the two products and the bias row in the reference's order; each of these steps acts on every row by itself, and the
  ten blocks tile the rows, so each grid leaves the layer applied to the whole arrays (Proof/LayerBlock.lean,
  Proof/KernelArrays.lean). Between the grids both programs apply the same gather, scatter-add and division to the
  hidden features (Proof/KernelValue.lean); the reference's result is the same composition (Proof/RefValue.lean,
  Proof/SageSpec.lean). No sum is regrouped and no factor is moved across a sum, so no finiteness of the inputs is used.
-/
import proofs.«132134_j17386027614800_1_alg».proof.Defs
import proofs.«132134_j17386027614800_1_alg».proof.Proof.Gen.Kernel
import proofs.«132134_j17386027614800_1_alg».proof.Proof.Gen.Kernel.Frame
import proofs.«132134_j17386027614800_1_alg».proof.Proof.Gen.KernelIdeal
import proofs.«132134_j17386027614800_1_alg».proof.Proof.Gen.KernelIdeal.Frame
import proofs.«132134_j17386027614800_1_alg».proof.Proof.Gen.ReferenceIdeal
import proofs.«132134_j17386027614800_1_alg».proof.Proof.Gen.ReferenceIdeal.Run
import proofs.«132134_j17386027614800_1_alg».proof.Proof.Gen.Pre_finite_inputs
import proofs.«132134_j17386027614800_1_alg».proof.Proof.KernelRun
import proofs.«132134_j17386027614800_1_alg».proof.Proof.KernelValue
import proofs.«132134_j17386027614800_1_alg».proof.Proof.RefValue
import Idealize.ShloMosaic.Adequacy
import Idealize.ShloMosaic.Init

noncomputable section

namespace Cert.Proof

open Idealize.ShloMosaic Idealize.ShloMosaic.TcCoe Idealize.SL.Sem

/-- The blocked program as printed terminates without a fault and leaves its arguments as launched. -/
theorem frame_kernel : Cert.frame_Kernel := fun m ρ _ => Cert.Kernel.Gen.frame m ρ

/-- So does the blocked program read at the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the blocked program at the extended reals rewrote none of its operations. -/
theorem preserves : Cert.preserves_Kernel_KernelIdeal := trivial

/-- From memories that agree on the eight arguments both programs end with the network of those arguments in their
    result arrays, and with the arguments unchanged. -/
theorem algebraic : Cert.algebraic_KernelIdeal_ReferenceIdeal := by
  intro m ρ m' ρ' _ hagree
  refine ⟨fun c => Cert.Sage.net
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Named.result_eq m ρ c), (h c).2⟩) (Cert.KernelIdeal.Named.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.Sage.reference_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
